-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S128x1 .f32) (main_arg11 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S128x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : FVec F S50000x64 .f32) (main_arg2 : IVec S2x1600000 32) (main_arg3 : FVec F S1600000 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S128x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S5000x64 : Shape := ⟨2, ![5000, 64]⟩
abbrev S1650000x64 : Shape := ⟨2, ![1650000, 64]⟩
abbrev S1x64 : Shape := ⟨2, ![1, 64]⟩
abbrev S64x1 : Shape := ⟨2, ![64, 1]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 104
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x1, .f32⟩
  | .hbm, ⟨11, _⟩ => ⟨S1, .f32⟩
  | .hbm, ⟨12, _⟩ => ⟨S50000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S1x1600000, .i32⟩
  | .hbm, ⟨17, _⟩ => ⟨S1600000, .i32⟩
  | .hbm, ⟨18, _⟩ => ⟨S1650000, .i32⟩
  | .hbm, ⟨19, _⟩ => ⟨S_, .f32⟩
  | .hbm, ⟨20, _⟩ => ⟨S50000, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000, .f32⟩
  | .hbm, ⟨60, _⟩ => ⟨S1650000, .f32⟩
  | .hbm, ⟨61, _⟩ => ⟨S50000x64, .bf16⟩
  | .hbm, ⟨62, _⟩ => ⟨S1650000x1, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000x64, .bf16⟩
  | .hbm, ⟨72, _⟩ => ⟨S1650000x64, .f32⟩
  | .hbm, ⟨73, _⟩ => ⟨S1650000x64, .f32⟩
  | .hbm, ⟨74, _⟩ => ⟨S1650000x64, .f32⟩
  | .hbm, ⟨75, _⟩ => ⟨S_, .f32⟩
  | .hbm, ⟨76, _⟩ => ⟨S50000x64, .f32⟩
  | .hbm, ⟨77, _⟩ => ⟨S1650000x1, .i32⟩
  | .hbm, ⟨78, _⟩ => ⟨S50000x64, .f32⟩
  | .hbm, ⟨79, _⟩ => ⟨S1x64, .f32⟩
  | .hbm, ⟨80, _⟩ => ⟨S50000x64, .bf16⟩
  | .hbm, ⟨81, _⟩ => ⟨S1650000x1, .f32⟩
  | .hbm, ⟨82, _⟩ => ⟨S_, .i32⟩
  | .hbm, ⟨83, _⟩ => ⟨S1650000, .i32⟩
  | .hbm, ⟨84, _⟩ => ⟨S1650000, .i1⟩
  | .hbm, ⟨85, _⟩ => ⟨S_, .i32⟩
  | .hbm, ⟨86, _⟩ => ⟨S1650000, .i32⟩
  | .hbm, ⟨87, _⟩ => ⟨S1650000, .i32⟩
  | .hbm, ⟨88, _⟩ => ⟨S1650000, .i32⟩
  | .hbm, ⟨89, _⟩ => ⟨S1650000x1, .i32⟩
  | .hbm, ⟨90, _⟩ => ⟨S1650000x64, .bf16⟩
  | .hbm, ⟨91, _⟩ => ⟨S1650000x64, .f32⟩
  | .hbm, ⟨92, _⟩ => ⟨S1650000x64, .f32⟩
  | .hbm, ⟨93, _⟩ => ⟨S1650000x64, .f32⟩
  | .hbm, ⟨94, _⟩ => ⟨S_, .f32⟩
  | .hbm, ⟨95, _⟩ => ⟨S50000x64, .f32⟩
  | .hbm, ⟨96, _⟩ => ⟨S1650000x1, .i32⟩
  | .hbm, ⟨97, _⟩ => ⟨S50000x64, .f32⟩
  | .hbm, ⟨98, _⟩ => ⟨S64x1, .f32⟩
  | .hbm, ⟨99, _⟩ => ⟨S64x1, .f32⟩
  | .hbm, ⟨100, _⟩ => ⟨S1x64, .f32⟩
  | .hbm, ⟨101, _⟩ => ⟨S1x64, .f32⟩
  | .hbm, ⟨102, _⟩ => ⟨S1x1, .f32⟩
  | .hbm, ⟨103, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x1, .f32⟩
  | .local _ .vmem, ⟨19, _⟩ => ⟨S64x1, .f32⟩
  | .local _ .vmem, ⟨20, _⟩ => ⟨S1x1, .f32⟩
  | .local _ .vmem, ⟨21, _⟩ => ⟨S5000x1, .f32⟩
  | .local _ .vmem, ⟨22, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem8_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x1_S64x1_0_0 : S128x1.Slices ![0, 0] S64x1
  slices_S128x1_S64x1_64_0 : S128x1.Slices ![64, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x64_S64x64_S5000x64_1_0_0_1_n_n_wf : DotDims.WF S5000x64 S64x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S50000x1.size a
  hwx2_8 : ∀ i : grid2.Coords, EltTy.bits .f32 = 32 ∨ (Rect.block (s := S50000x1) S5000x1.size (cc2_transform_8 i) (hinb2_8 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v71) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x1, .f32⟩
  | .hbm, ⟨11, _⟩ => ⟨S1, .f32⟩
  | .hbm, ⟨12, _⟩ => ⟨S50000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S1x1600000, .i32⟩
  | .hbm, ⟨17, _⟩ => ⟨S1600000, .i32⟩
  | .hbm, ⟨18, _⟩ => ⟨S1650000, .i32⟩
  | .hbm, ⟨19, _⟩ => ⟨S_, .f32⟩
  | .hbm, ⟨20, _⟩ => ⟨S50000, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000, .f32⟩
  | .hbm, ⟨60, _⟩ => ⟨S1650000, .f32⟩
  | .hbm, ⟨61, _⟩ => ⟨S50000x64, .f32⟩
  | .hbm, ⟨62, _⟩ => ⟨S1650000x1, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000x64, .f32⟩
  | .hbm, ⟨72, _⟩ => ⟨S1650000x64, .f32⟩
  | .hbm, ⟨73, _⟩ => ⟨S1650000x64, .f32⟩
  | .hbm, ⟨74, _⟩ => ⟨S_, .f32⟩
  | .hbm, ⟨75, _⟩ => ⟨S50000x64, .f32⟩
  | .hbm, ⟨76, _⟩ => ⟨S1650000x1, .i32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S1650000x1, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000x64, .f32⟩
  | .hbm, ⟨95, _⟩ => ⟨S1650000x64, .f32⟩
  | .hbm, ⟨96, _⟩ => ⟨S1650000x64, .f32⟩
  | .hbm, ⟨97, _⟩ => ⟨S_, .f32⟩
  | .hbm, ⟨98, _⟩ => ⟨S50000x64, .f32⟩
  | .hbm, ⟨99, _⟩ => ⟨S1650000x1, .i32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S50000x128, .f32⟩
  | .hbm, ⟨109, _⟩ => ⟨S50000x1, .f32⟩
  | .hbm, ⟨110, _⟩ => ⟨S1x1, .f32⟩
  | .hbm, ⟨111, _⟩ => ⟨S50000x1, .f32⟩
  | .hbm, ⟨112, _⟩ => ⟨S50000x1, .f32⟩
  | .hbm, ⟨113, _⟩ => ⟨S50000x1, .f32⟩
  | .hbm, ⟨114, _⟩ => ⟨S50000x1, .f32⟩
  | .hbm, ⟨115, _⟩ => ⟨S_, .f32⟩
  | .hbm, ⟨116, _⟩ => ⟨S50000x1, .f32⟩
  | .hbm, ⟨117, _⟩ => ⟨S50000x1, .f32⟩
  | .hbm, ⟨118, _⟩ => ⟨S_, .f32⟩
  | .hbm, ⟨119, _⟩ => ⟨S50000x1, .f32⟩
  | .hbm, ⟨120, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x64_S64x64_S50000x64_1_0_0_1_n_n_wf : DotDims.WF S50000x64 S64x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x128_S128x1_S50000x1_1_0_0_1_n_n_wf : DotDims.WF S50000x128 S128x1 S50000x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Run.lean ====
/-
  The idealized kernel's run with its RESULT named.  @main is ten segments: five stretches of host operations, the first
  matrix-product region, a stretch, the second region, a stretch, the third region.  Every weakly fair execution
  terminates, and at the end every unscoped buffer holds what the fold of the segments leaves in it: a host operation's
  result is that operation of its operands, a region's output array is what its grid points wrote back.  The frame
  theorem keeps only the twelve argument arrays of that final memory; here the result array is kept as well, so that
  its value can be read off the fold.
-/
import proofs.«134691_j40896678592679_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at what the last region's
    write-backs leave in it (the fold `W10` at the result's buffer) and the argument arrays end as launched. -/
theorem run : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.Spec.lean ====
/-
  The mathematics both programs compute, as functions of whole arrays (extended reals; N = 50000 nodes, 64 features,
  E = 1650000 edges once every node's self-loop is appended).
    * rowsTimes x W         [N, 64]:  (x · W)[r, q] = Σ_k x[r, k] · W[k, q].
    * aggregate row col ν h [N, 64]:  the normalised neighbourhood sum  Σ_{e : col e = r} ν[e] · h[row e, q], written
      with the very host operations both programs print (a negative index wrapped by N, a row gather, the product with
      the edge norm broadcast along the features, a scatter-add into zeros): the two programs spell it alike, so it is
      never opened.
    * reluRowsTimes a b W   [N, 64]:  (max(a + b, 0) · W)[r, q] = Σ_k max(a[r, k] + b[0, k], 0) · W[k, q].
    * head a b₂ f W_f b_f u v b_o [N, 1]:  σ( Σ_k (a[r, k] + b₂[0, k]) · u[k, 0]
                                          + Σ_k (Σ_l f[r, l] · W_f[l, k] + b_f[0, k]) · v[k, 0] + b_o[0, 0] ),
      σ the logistic function.
  The network is  head (aggregate … (reluRowsTimes (aggregate … (rowsTimes x W₁)) b₁ W₂)) b₂ flat W_f b_f W_o[:64] W_o[64:] b_o.
-/
import proofs.«134691_j40896678592679_2_alg».proof.Proof.Gen.KernelIdeal
import Idealize.ShloMosaic.Lib.ValueIdx
import Idealize.ShloMosaic.PureOps.Ideal

noncomputable section

namespace Cert.KernelIdeal.Spec

open Cert.KernelIdeal Cert.KernelIdeal.Gen Idealize.ShloMosaic Idealize.ShloMosaic.ValueIdx

/-- Rows times a square matrix: entry (r, q) is Σ_k x[r, k] · W[k, q]. -/
def rowsTimes (x : FVec Ideal S50000x64 .f32) (w : FVec Ideal S64x64 .f32) : FVec Ideal S50000x64 .f32 :=
  fun i => ∑ k : Fin 64, x (ix2 (i 0 : Fin 50000) k) * w (ix2 k (i 1 : Fin 64))

/-- The rectified, shifted rows times a square matrix: entry (r, q) is Σ_k max(a[r, k] + b[0, k], 0) · W[k, q]. -/
def reluRowsTimes (a : FVec Ideal S50000x64 .f32) (b : FVec Ideal S1x64 .f32) (w : FVec Ideal S64x64 .f32) : FVec Ideal S50000x64 .f32 :=
  fun i => ∑ k : Fin 64, max (a (ix2 (i 0 : Fin 50000) k) + b (ix2 (0 : Fin 1) k)) (Ideal.ofBits .f32 0x00000000#32) * w (ix2 k (i 1 : Fin 64))

/-- The head on whole arrays: entry (r, 0) is the logistic function of
    Σ_k (a[r, k] + b₂[0, k]) · u[k, 0] + Σ_k (Σ_l f[r, l] · W_f[l, k] + b_f[0, k]) · v[k, 0] + b_o[0, 0]. -/
def head (a : FVec Ideal S50000x64 .f32) (b2 : FVec Ideal S1x64 .f32) (f : FVec Ideal S50000x64 .f32) (wf : FVec Ideal S64x64 .f32)
    (bf : FVec Ideal S1x64 .f32) (u v : FVec Ideal S64x1 .f32) (bo : FVec Ideal S1x1 .f32) : FVec Ideal S50000x1 .f32 :=
  fun i => Ideal.logistic ((∑ k : Fin 64, (a (ix2 (i 0 : Fin 50000) k) + b2 (ix2 (0 : Fin 1) k)) * u (ix2 k (i 1 : Fin 1)))
      + (∑ k : Fin 64, ((∑ l : Fin 64, f (ix2 (i 0 : Fin 50000) l) * wf (ix2 l k)) + bf (ix2 (0 : Fin 1) k)) * v (ix2 k (i 1 : Fin 1)))
      + bo (ix2 (0 : Fin 1) (0 : Fin 1)))

/-- The normalised neighbourhood sum of the rows of `h`: edge e carries ν[e] · h[row e, ·] to node col e; a negative source
    index counts from the end. -/
def aggregate (row col : IVec S1650000 32) (ν : FVec Ideal S1650000 .f32) (h : FVec Ideal S50000x64 .f32) : FVec Ideal S50000x64 .f32 :=
  Host.scatterAdd scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 col)
    (mulf (broadcastInDim S1650000x64 ![0, 1] bcast_S1650000x1_S1650000x64_0_1 (broadcastInDim S1650000x1 ![0] bcast_S1650000_S1650000x1_0 ν))
      (Host.gather gather_S50000x64_S1650000x1_S1650000x64_1_0_n_n_0_1_164 h
        (broadcastInDim S1650000x1 ![0] bcast_S1650000_S1650000x1_0
          (select (cmpi .slt row (broadcastInDim S1650000 ![] bcast_S_S1650000 (constantI S_ 32 0#32)))
            (addi row (broadcastInDim S1650000 ![] bcast_S_S1650000 (constantI S_ 32 50000#32))) row))))

end Cert.KernelIdeal.Spec

end
-- ==== Proof.Kept.lean ====
/-
  No argument array is ever written: no host operation has one as its result, and a region only stages it through an
  input window.  So at every boundary between @main's segments where an argument is read, it still holds its launch
  contents.  Read backwards from the end of the run, where the frame states it.
-/
import proofs.«134691_j40896678592679_2_alg».proof.Proof.Gen.KernelIdeal.Frame
import Idealize.ShloMosaic.Lib.StableHlo.Run
import Idealize.ShloMosaic.Lib.ValueIdx

set_option maxRecDepth 16384

noncomputable section

namespace Cert.KernelIdeal.Kept

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo (after_cons after_nil)

variable (m : (ℓ : Loc nD τ sig) → Buf (Elt Ideal) ℓ) (ρ : Dev nD → PrngReg)

/-- A buffer none of a stretch's operations writes keeps its contents across the stretch. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The argument arrays at the boundaries where they are read -/

theorem keep2 (c : Dev nD) (a : Ref sig .tc) (h9 : W9 m ρ c (Proc.devRef .tc a) = m ((c : Thread nD τ).loc a))
    (h : W9 m ρ c (Proc.devRef .tc a) = W8 m ρ c (Proc.devRef .tc a)) : W8 m ρ c (Proc.devRef .tc a) = m ((c : Thread nD τ).loc a) :=
  h.symm.trans h9

theorem W9_arg0 (c : Dev nD) : W9 m ρ c (Proc.devRef .tc main_arg0) = m ((c : Thread nD τ).loc main_arg0) :=
  (W10_of_ne m ρ c main_arg0 (by decide)).symm.trans (W10_main_arg0 m ρ c)
theorem W9_arg4 (c : Dev nD) : W9 m ρ c (Proc.devRef .tc main_arg4) = m ((c : Thread nD τ).loc main_arg4) :=
  (W10_of_ne m ρ c main_arg4 (by decide)).symm.trans (W10_main_arg4 m ρ c)
theorem W9_arg5 (c : Dev nD) : W9 m ρ c (Proc.devRef .tc main_arg5) = m ((c : Thread nD τ).loc main_arg5) :=
  (W10_of_ne m ρ c main_arg5 (by decide)).symm.trans (W10_main_arg5 m ρ c)
theorem W9_arg6 (c : Dev nD) : W9 m ρ c (Proc.devRef .tc main_arg6) = m ((c : Thread nD τ).loc main_arg6) :=
  (W10_of_ne m ρ c main_arg6 (by decide)).symm.trans (W10_main_arg6 m ρ c)
theorem W9_arg1 (c : Dev nD) : W9 m ρ c (Proc.devRef .tc main_arg1) = m ((c : Thread nD τ).loc main_arg1) :=
  ((W10_arr m ρ c 2).trans (((dat2 (V9 m ρ) c).arrAt_in 2 rfl _).trans (A_eq2 (V9 m ρ) c 2))).symm.trans (W10_main_arg1 m ρ c)
theorem W9_arg8 (c : Dev nD) : W9 m ρ c (Proc.devRef .tc main_arg8) = m ((c : Thread nD τ).loc main_arg8) :=
  ((W10_arr m ρ c 3).trans (((dat2 (V9 m ρ) c).arrAt_in 3 rfl _).trans (A_eq2 (V9 m ρ) c 3))).symm.trans (W10_main_arg8 m ρ c)

theorem W8_arg0 (c : Dev nD) : W8 m ρ c (Proc.devRef .tc main_arg0) = m ((c : Thread nD τ).loc main_arg0) :=
  keep2 m ρ c main_arg0 (W9_arg0 m ρ c) (by unwritten hostOps2)
theorem W8_arg4 (c : Dev nD) : W8 m ρ c (Proc.devRef .tc main_arg4) = m ((c : Thread nD τ).loc main_arg4) :=
  keep2 m ρ c main_arg4 (W9_arg4 m ρ c) (by unwritten hostOps2)
theorem W8_arg5 (c : Dev nD) : W8 m ρ c (Proc.devRef .tc main_arg5) = m ((c : Thread nD τ).loc main_arg5) :=
  keep2 m ρ c main_arg5 (W9_arg5 m ρ c) (by unwritten hostOps2)
theorem W8_arg6 (c : Dev nD) : W8 m ρ c (Proc.devRef .tc main_arg6) = m ((c : Thread nD τ).loc main_arg6) :=
  keep2 m ρ c main_arg6 (W9_arg6 m ρ c) (by unwritten hostOps2)
theorem W8_arg7 (c : Dev nD) : W8 m ρ c (Proc.devRef .tc main_arg7) = m ((c : Thread nD τ).loc main_arg7) :=
  keep2 m ρ c main_arg7 ((W10_of_ne m ρ c main_arg7 (by decide)).symm.trans (W10_main_arg7 m ρ c)) (by unwritten hostOps2)
theorem W8_arg9 (c : Dev nD) : W8 m ρ c (Proc.devRef .tc main_arg9) = m ((c : Thread nD τ).loc main_arg9) :=
  keep2 m ρ c main_arg9 ((W10_of_ne m ρ c main_arg9 (by decide)).symm.trans (W10_main_arg9 m ρ c)) (by unwritten hostOps2)
theorem W8_arg10 (c : Dev nD) : W8 m ρ c (Proc.devRef .tc main_arg10) = m ((c : Thread nD τ).loc main_arg10) :=
  keep2 m ρ c main_arg10 ((W10_of_ne m ρ c main_arg10 (by decide)).symm.trans (W10_main_arg10 m ρ c)) (by unwritten hostOps2)
theorem W8_arg11 (c : Dev nD) : W8 m ρ c (Proc.devRef .tc main_arg11) = m ((c : Thread nD τ).loc main_arg11) :=
  keep2 m ρ c main_arg11 ((W10_of_ne m ρ c main_arg11 (by decide)).symm.trans (W10_main_arg11 m ρ c)) (by unwritten hostOps2)

theorem W7_arg6 (c : Dev nD) : W7 m ρ c (Proc.devRef .tc main_arg6) = m ((c : Thread nD τ).loc main_arg6) :=
  ((W8_arr m ρ c 2).trans (((dat1 (V7 m ρ) c).arrAt_in 2 rfl _).trans (A_eq1 (V7 m ρ) c 2))).symm.trans (W8_arg6 m ρ c)
theorem W7_arg0 (c : Dev nD) : W7 m ρ c (Proc.devRef .tc main_arg0) = m ((c : Thread nD τ).loc main_arg0) :=
  (W8_of_ne m ρ c main_arg0 (by decide)).symm.trans (W8_arg0 m ρ c)
theorem W7_arg4 (c : Dev nD) : W7 m ρ c (Proc.devRef .tc main_arg4) = m ((c : Thread nD τ).loc main_arg4) :=
  (W8_of_ne m ρ c main_arg4 (by decide)).symm.trans (W8_arg4 m ρ c)
theorem W7_arg5 (c : Dev nD) : W7 m ρ c (Proc.devRef .tc main_arg5) = m ((c : Thread nD τ).loc main_arg5) :=
  (W8_of_ne m ρ c main_arg5 (by decide)).symm.trans (W8_arg5 m ρ c)

theorem W6_arg0 (c : Dev nD) : W6 m ρ c (Proc.devRef .tc main_arg0) = m ((c : Thread nD τ).loc main_arg0) :=
  (show W7 m ρ c (Proc.devRef .tc main_arg0) = W6 m ρ c (Proc.devRef .tc main_arg0) by unwritten hostOps1).symm.trans (W7_arg0 m ρ c)
theorem W6_arg4 (c : Dev nD) : W6 m ρ c (Proc.devRef .tc main_arg4) = m ((c : Thread nD τ).loc main_arg4) :=
  (show W7 m ρ c (Proc.devRef .tc main_arg4) = W6 m ρ c (Proc.devRef .tc main_arg4) by unwritten hostOps1).symm.trans (W7_arg4 m ρ c)
theorem W6_arg5 (c : Dev nD) : W6 m ρ c (Proc.devRef .tc main_arg5) = m ((c : Thread nD τ).loc main_arg5) :=
  (show W7 m ρ c (Proc.devRef .tc main_arg5) = W6 m ρ c (Proc.devRef .tc main_arg5) by unwritten hostOps1).symm.trans (W7_arg5 m ρ c)

theorem W5_arg0 (c : Dev nD) : W5 m ρ c (Proc.devRef .tc main_arg0) = m ((c : Thread nD τ).loc main_arg0) :=
  ((W6_arr m ρ c 0).trans (((dat0 (V5 m ρ) c).arrAt_in 0 rfl _).trans (A_eq0 (V5 m ρ) c 0))).symm.trans (W6_arg0 m ρ c)
theorem W5_arg4 (c : Dev nD) : W5 m ρ c (Proc.devRef .tc main_arg4) = m ((c : Thread nD τ).loc main_arg4) :=
  ((W6_arr m ρ c 1).trans (((dat0 (V5 m ρ) c).arrAt_in 1 rfl _).trans (A_eq0 (V5 m ρ) c 1))).symm.trans (W6_arg4 m ρ c)

end Cert.KernelIdeal.Kept

end
-- ==== Proof.Products.lean ====
/-
  The three kernel bodies read at one entry of their output block, at the ideal instance (a float is an extended real,
  a change of format is the identity, a matrix product into the zero accumulator is the plain sum over the contracted
  axis).  Row `p` of a block of 5000 rows:
    * first body:   (x · W)[p, q]                       = Σ_k x[p, k] · W[k, q];
    * second body:  (max(a + b, 0) · W)[p, q]           = Σ_k max(a[p, k] + b[0, k], 0) · W[k, q];
    * third body:   σ( (a + b₂) · u + (f · W_f + b_f) · v + b_o )[p, 0], the logistic function of
                    Σ_k (a[p, k] + b₂[0, k]) · u[k, 0] + Σ_k (Σ_l f[p, l] · W_f[l, k] + b_f[0, k]) · v[k, 0] + b_o[0, 0].
  The zero of the rectifier is kept as the word it was printed with: it is never evaluated, the reference prints the same word.
-/
import proofs.«134691_j40896678592679_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.ValueIdx

/-! ## The two contractions: 5000 rows against a 64 × 64 and against a 64 × 1 matrix -/

theorem lhs64_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem rhs64_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a 5000 × 64 block times a 64 × 64 matrix, accumulated from zero, is the sum over the 64 columns. -/
theorem matmul_sq {φ₁ φ₂ : FTy} (a : FVec Ideal S5000x64 φ₁) (b : FVec Ideal S64x64 φ₂) (p : Fin 5000) (q : Fin 64) :
    FloatOps.matmul dot_S5000x64_S64x64_S5000x64_1_0_0_1_n_n none a b (constant S5000x64 .f32 0x00000000#32) (ix2 p q)
      = ∑ k : Fin 64, a (ix2 p k) * b (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun d => Fin.ext (by
    match d with
    | ⟨0, _⟩ => exact lhs64_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun d => Fin.ext (by
    match d with
    | ⟨0, _⟩ => exact (dot_S5000x64_S64x64_S5000x64_1_0_0_1_n_n.rhsIdx_val_of_single rfl _ _).trans hk
    | ⟨1, _⟩ => exact rhs64_1 _ _)
  rw [el, er]

theorem lhs1_0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem rhs1_1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Entry (p, 0) of a 5000 × 64 block times a 64 × 1 column, accumulated from zero, is the sum over the 64 columns. -/
theorem matmul_col {φ₁ φ₂ : FTy} (a : FVec Ideal S5000x64 φ₁) (b : FVec Ideal S64x1 φ₂) (p : Fin 5000) (z : Fin 1) :
    FloatOps.matmul dot_S5000x64_S64x1_S5000x1_1_0_0_1_n_n none a b (constant S5000x1 .f32 0x00000000#32) (ix2 p z)
      = ∑ k : Fin 64, a (ix2 p k) * b (ix2 k z) := by
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p z) ((contrEquiv1 dot_S5000x64_S64x1_S5000x1_1_0_0_1_n_n 64 rfl rfl).symm k) = ix2 p k := funext fun d => Fin.ext (by
    match d with
    | ⟨0, _⟩ => exact lhs1_0 _ _
    | ⟨1, _⟩ => exact (dot_S5000x64_S64x1_S5000x1_1_0_0_1_n_n.lhsIdx_val_of_single rfl _ _).trans hk)
  have er : dot_S5000x64_S64x1_S5000x1_1_0_0_1_n_n.rhsIdx (ix2 p z) ((contrEquiv1 dot_S5000x64_S64x1_S5000x1_1_0_0_1_n_n 64 rfl rfl).symm k) = ix2 k z := funext fun d => Fin.ext (by
    match d with
    | ⟨0, _⟩ => exact (dot_S5000x64_S64x1_S5000x1_1_0_0_1_n_n.rhsIdx_val_of_single rfl _ _).trans hk
    | ⟨1, _⟩ => exact rhs1_1 _ _)
  rw [el, er]

/-! ## A one-row matrix broadcast down 5000 rows -/

/-- The [1, 64] row broadcast to [5000, 64], read at (p, k), is the row's entry k. -/
theorem row_bcast (b : FVec Ideal S1x64 .f32) (h : S1x64.Broadcasts S5000x64) (p : Fin 5000) (k : Fin 64) :
    broadcastTo S5000x64 b h (ix2 p k) = b (ix2 (0 : Fin 1) k) :=
  broadcastTo_apply b h (ix2 p k) (ix2 (0 : Fin 1) k) (fun d => by
    match d with
    | ⟨0, _⟩ => show (0 : Nat) = if (1 : Nat) = 1 then 0 else _; rw [if_pos rfl]
    | ⟨1, _⟩ => show k.val = if (64 : Nat) = 1 then 0 else k.val; rw [if_neg (by decide)])

/-- The [1, 1] matrix broadcast to [5000, 1], read at (p, 0), is its one entry. -/
theorem one_bcast (b : FVec Ideal S1x1 .f32) (h : S1x1.Broadcasts S5000x1) (p : Fin 5000) (z : Fin 1) :
    broadcastTo S5000x1 b h (ix2 p z) = b (ix2 (0 : Fin 1) (0 : Fin 1)) :=
  broadcastTo_apply b h (ix2 p z) (ix2 (0 : Fin 1) (0 : Fin 1)) (fun d => by
    match d with
    | ⟨0, _⟩ => show (0 : Nat) = if (1 : Nat) = 1 then 0 else _; rw [if_pos rfl]
    | ⟨1, _⟩ => show (0 : Nat) = if (1 : Nat) = 1 then 0 else _; rw [if_pos rfl])

/-! ## The three bodies at an entry -/

/-- First body: the block of x times W. -/
theorem body0_apply (x : Vec Ideal S5000x64 .f32) (w : Vec Ideal S64x64 .f32) (p : Fin 5000) (q : Fin 64) :
    k0_pay1 (F := Ideal) x w (ix2 p q) = ∑ k : Fin 64, x (ix2 p k) * w (ix2 k q) := by
  unfold k0_pay1
  exact matmul_sq _ _ p q

/-- Second body: the rectified, shifted block times W. -/
theorem body1_apply (a : Vec Ideal S5000x64 .f32) (b : Vec Ideal S1x64 .f32) (w : Vec Ideal S64x64 .f32) (p : Fin 5000) (q : Fin 64) :
    k1_pay1 (F := Ideal) a b w (ix2 p q)
      = ∑ k : Fin 64, max (a (ix2 p k) + b (ix2 (0 : Fin 1) k)) (Ideal.ofBits .f32 0x00000000#32) * w (ix2 k q) := by
  unfold k1_pay1
  refine (matmul_sq _ _ p q).trans ?_
  refine Finset.sum_congr rfl fun k _ => ?_
  refine congrArg (· * w (ix2 k q)) ?_
  show max (shapeCast S5000x64 a shapeCasts_S5000x64_S5000x64 (ix2 p k) + broadcastTo S5000x64 (shapeCast S1x64 b shapeCasts_S1x64_S1x64) broadcasts_S1x64_S5000x64 (ix2 p k)) _ = _
  rw [shapeCast_self, shapeCast_self, row_bcast]
  rfl

/-- Third body: the logistic function of the two column products and the bias. -/
theorem body2_apply (a : Vec Ideal S5000x64 .f32) (b2 : Vec Ideal S1x64 .f32) (f : Vec Ideal S5000x64 .f32) (wf : Vec Ideal S64x64 .f32)
    (bf : Vec Ideal S1x64 .f32) (u v : Vec Ideal S64x1 .f32) (bo : Vec Ideal S1x1 .f32) (p : Fin 5000) (z : Fin 1) :
    k2_pay1 (F := Ideal) a b2 f wf bf u v bo (ix2 p z)
      = Ideal.logistic ((∑ k : Fin 64, (a (ix2 p k) + b2 (ix2 (0 : Fin 1) k)) * u (ix2 k z))
          + (∑ k : Fin 64, ((∑ l : Fin 64, f (ix2 p l) * wf (ix2 l k)) + bf (ix2 (0 : Fin 1) k)) * v (ix2 k z))
          + bo (ix2 (0 : Fin 1) (0 : Fin 1))) := by
  unfold k2_pay1
  simp only [shapeCast_self]
  show Ideal.logistic ((FloatOps.matmul (F := Ideal) dot_S5000x64_S64x1_S5000x1_1_0_0_1_n_n none _ _ (constant S5000x1 .f32 0x00000000#32) (ix2 p z)
      + FloatOps.matmul (F := Ideal) dot_S5000x64_S64x1_S5000x1_1_0_0_1_n_n none _ _ (constant S5000x1 .f32 0x00000000#32) (ix2 p z))
      + broadcastTo S5000x1 bo broadcasts_S1x1_S5000x1 (ix2 p z)) = _
  rw [matmul_col, matmul_col, one_bcast]
  refine congrArg Ideal.logistic (congrArg₂ (· + ·) (congrArg₂ (· + ·) ?_ ?_) rfl)
  · refine Finset.sum_congr rfl fun k _ => ?_
    show (a (ix2 p k) + broadcastTo S5000x64 b2 broadcasts_S1x64_S5000x64 (ix2 p k)) * u (ix2 k z) = _
    rw [row_bcast]
  · refine Finset.sum_congr rfl fun k _ => ?_
    show (FloatOps.matmul (F := Ideal) dot_S5000x64_S64x64_S5000x64_1_0_0_1_n_n none _ _ (constant S5000x64 .f32 0x00000000#32) (ix2 p k) + broadcastTo S5000x64 bf broadcasts_S1x64_S5000x64 (ix2 p k)) * v (ix2 k z) = _
    rw [matmul_sq, row_bcast]
    rfl

end Cert.KernelIdeal.Products

end
-- ==== Proof.Layer1.lean ====
/-
  The first region.  Its grid has ten points; point t stages rows 5000·t … 5000·t + 4999 of x (all 64 columns) and the
  whole 64 × 64 matrix W, and writes back the same rows of the product.  The ten row blocks tile the 50000 rows, so the
  output array after the region is the whole product x · W, whatever the region finds in its two input arrays.
-/
import proofs.«134691_j40896678592679_2_alg».proof.Proof.Gen.KernelIdeal.Frame
import proofs.«134691_j40896678592679_2_alg».proof.Proof.Products
import proofs.«134691_j40896678592679_2_alg».proof.Proof.Spec
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Spec

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the row-block windows sit at block (t, 0), the matrix at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's block at an entry, over plain vectors. -/
theorem body_at (x : Vec Ideal S5000x64 .f32) (w : Vec Ideal S64x64 .f32) (j : S5000x64.Idx) :
    k0_pay1 (F := Ideal) x w j = ∑ k : Fin 64, x (ix2 (j 0 : Fin 5000) k) * w (ix2 k (j 1 : Fin 64)) :=
  (congrArg (k0_pay1 (F := Ideal) x w) (eq_ix2 j)).trans (Products.body0_apply x w (j 0) (j 1))

set_option maxHeartbeats 4000000 in
/-- What point t writes back is block t of the product of the two arrays the region finds. -/
theorem flushed_eq (c : Dev nD) (t : Fin cfg0.N) :
    (dat0 V c).flushed 2 t = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero origin]
  simp only [View.ld_unit_zero (S := S5000x64) origin, View.ld_unit_zero (S := S64x64) origin]
  obtain ⟨e0, e1, e2, e3, e4, e5⟩ := index_maps t
  funext j
  refine (body_at (iblk0 V c 0 t) (iblk0 V c 1 t) j).trans ?_
  refine (Finset.sum_congr rfl fun k _ => ?_ : _ = rowsTimes (V c main_arg0) (V c main_arg4) (((cfg0.win 2).blk t).view.emb j))
  refine congrArg₂ (· * ·) ?_ ?_
  · show V c main_arg0 (((cfg0.win 0).blk t).view.emb (ix2 (j 0 : Fin 5000) k)) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  · show V c main_arg4 (((cfg0.win 1).blk t).view.emb (ix2 k (j 1 : Fin 64))) = V c main_arg4 _
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the output array lies in point t's block iff each coordinate lies in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Row r is in the block of point r / 5000: the ten blocks cover the array. -/
theorem cover (i : S50000x64.Idx) : ∃ t : Fin cfg0.N, (cfg0.win 2).flush t = true ∧ i ∈ ((cfg0.win 2).blk t).view.set := by
  have h0 : (i 0).val < 50000 := (i 0).isLt
  have h1 : (i 1).val < 64 := (i 1).isLt
  let t : Fin cfg0.N := ⟨(i 0).val / 5000, by show _ < 10; omega⟩
  obtain ⟨e0, e1, e2, e3, e4, e5⟩ := index_maps t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the whole product. -/
theorem final (c : Dev nD) : (dat0 V c).arrAt 2 cfg0.N = rowsTimes (V c main_arg0) (V c main_arg4) :=
  (dat0 V c).arrAt_eq_of_cover 2 _ (fun t _ => flushed_eq V c t) cover

end Cert.KernelIdeal.Layer1

end
-- ==== Proof.Layer2.lean ====
/-
  The second region.  Point t stages rows 5000·t … 5000·t + 4999 of the aggregated array a, the one-row bias b and the
  whole 64 × 64 matrix W, and writes back the same rows of max(a + b, 0) · W.  The ten row blocks tile the 50000 rows, so
  the output array after the region is that product for the whole array.
-/
import proofs.«134691_j40896678592679_2_alg».proof.Proof.Gen.KernelIdeal.Frame
import proofs.«134691_j40896678592679_2_alg».proof.Proof.Products
import proofs.«134691_j40896678592679_2_alg».proof.Proof.Spec
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Spec

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the row-block windows sit at block (t, 0), the others at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's block at an entry, over plain vectors. -/
theorem body_at (a : Vec Ideal S5000x64 .f32) (b : Vec Ideal S1x64 .f32) (w : Vec Ideal S64x64 .f32) (j : S5000x64.Idx) :
    k1_pay1 (F := Ideal) a b w j
      = ∑ k : Fin 64, max (a (ix2 (j 0 : Fin 5000) k) + b (ix2 (0 : Fin 1) k)) (Ideal.ofBits .f32 0x00000000#32) * w (ix2 k (j 1 : Fin 64)) :=
  (congrArg (k1_pay1 (F := Ideal) a b w) (eq_ix2 j)).trans (Products.body1_apply a b w (j 0) (j 1))

set_option maxHeartbeats 4000000 in
/-- What point t writes back is block t of the whole-array product of the three arrays the region finds. -/
theorem flushed_eq (c : Dev nD) (t : Fin cfg1.N) :
    (dat1 V c).flushed 3 t = ((cfg1.win 3).blk t).view.read (Elt Ideal) (reluRowsTimes (V c main_v49) (V c main_v50) (V c main_arg6)) := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin, View.ld_unit_zero (S := S64x64) origin]
  obtain ⟨e0, e1, e2, e3, e4, e5, e6, e7⟩ := index_maps t
  funext j
  refine (body_at (iblk1 V c 0 t) (iblk1 V c 1 t) (iblk1 V c 2 t) j).trans ?_
  refine (Finset.sum_congr rfl fun k _ => ?_ : _ = reluRowsTimes (V c main_v49) (V c main_v50) (V c main_arg6) (((cfg1.win 3).blk t).view.emb j))
  refine congrArg₂ (· * ·) (congrArg (max · (Ideal.ofBits .f32 0x00000000#32)) (congrArg₂ (· + ·) ?_ ?_)) ?_
  · show V c main_v49 (((cfg1.win 0).blk t).view.emb (ix2 (j 0 : Fin 5000) k)) = V c main_v49 _
    refine congrArg (V c main_v49) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_v50 (((cfg1.win 1).blk t).view.emb (ix2 (0 : Fin 1) k)) = V c main_v50 _
    refine congrArg (V c main_v50) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg6 (((cfg1.win 2).blk t).view.emb (ix2 k (j 1 : Fin 64))) = V c main_arg6 _
    refine congrArg (V c main_arg6) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega

/-- An index of the output array lies in point t's block iff each coordinate lies in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v51).slice (win1_3.rect t)).set ↔ _
  rw [View.set_slice_whole, Rect.mem_set_unit]
  exact Iff.rfl

/-- Row r is in the block of point r / 5000: the ten blocks cover the array. -/
theorem cover (i : S50000x64.Idx) : ∃ t : Fin cfg1.N, (cfg1.win 3).flush t = true ∧ i ∈ ((cfg1.win 3).blk t).view.set := by
  have h0 : (i 0).val < 50000 := (i 0).isLt
  have h1 : (i 1).val < 64 := (i 1).isLt
  let t : Fin cfg1.N := ⟨(i 0).val / 5000, by show _ < 10; omega⟩
  obtain ⟨e0, e1, e2, e3, e4, e5, e6, e7⟩ := index_maps t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array is the whole product. -/
theorem final (c : Dev nD) : (dat1 V c).arrAt 3 cfg1.N = reluRowsTimes (V c main_v49) (V c main_v50) (V c main_arg6) :=
  (dat1 V c).arrAt_eq_of_cover 3 _ (fun t _ => flushed_eq V c t) cover

end Cert.KernelIdeal.Layer2

end
-- ==== Proof.Head.lean ====
/-
  The third region, the fusion head.  Point t stages rows 5000·t … 5000·t + 4999 of the second aggregated array a and
  of the flat features f, and whole: the one-row biases b₂ and b_f, the 64 × 64 matrix W_f, the two 64 × 1 halves u, v
  of the output weights and the 1 × 1 output bias b_o.  It writes back the same rows of the one-column array
  σ((a + b₂) · u + (f · W_f + b_f) · v + b_o).  The ten row blocks tile the 50000 rows.
-/
import proofs.«134691_j40896678592679_2_alg».proof.Proof.Gen.KernelIdeal.Frame
import proofs.«134691_j40896678592679_2_alg».proof.Proof.Products
import proofs.«134691_j40896678592679_2_alg».proof.Proof.Spec
import Idealize.ShloMosaic.Lib.Pipeline.Value

set_option maxRecDepth 16384

noncomputable section

namespace Cert.KernelIdeal.Head

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Spec

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the three row-block windows sit at block (t, 0), the others at (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The body's block at an entry, over plain vectors. -/
theorem body_at (a : Vec Ideal S5000x64 .f32) (b2 : Vec Ideal S1x64 .f32) (f : Vec Ideal S5000x64 .f32) (wf : Vec Ideal S64x64 .f32)
    (bf : Vec Ideal S1x64 .f32) (u v : Vec Ideal S64x1 .f32) (bo : Vec Ideal S1x1 .f32) (j : S5000x1.Idx) :
    k2_pay1 (F := Ideal) a b2 f wf bf u v bo j
      = Ideal.logistic ((∑ k : Fin 64, (a (ix2 (j 0 : Fin 5000) k) + b2 (ix2 (0 : Fin 1) k)) * u (ix2 k (j 1 : Fin 1)))
          + (∑ k : Fin 64, ((∑ l : Fin 64, f (ix2 (j 0 : Fin 5000) l) * wf (ix2 l k)) + bf (ix2 (0 : Fin 1) k)) * v (ix2 k (j 1 : Fin 1)))
          + bo (ix2 (0 : Fin 1) (0 : Fin 1))) :=
  (congrArg (k2_pay1 (F := Ideal) a b2 f wf bf u v bo) (eq_ix2 j)).trans (Products.body2_apply a b2 f wf bf u v bo (j 0) (j 1))

set_option maxHeartbeats 4000000 in
/-- What point t writes back is block t of the head of the eight arrays the region finds. -/
theorem flushed_eq (c : Dev nD) (t : Fin cfg2.N) :
    (dat2 V c).flushed 8 t = ((cfg2.win 8).blk t).view.read (Elt Ideal)
      (head (V c main_v65) (V c main_v68) (V c main_arg1) (V c main_arg8) (V c main_v69) (V c main_v66) (V c main_v67) (V c main_v70)) := by
  show (cfg2.win 8).cut (grid2.coords t) ((dat2 V c).after 8 t) = _
  rw [after2_8]
  unfold out2_8
  rw [View.canon_unit_zero origin]
  simp only [View.ld_unit_zero (S := S5000x64) origin, View.ld_unit_zero (S := S1x64) origin, View.ld_unit_zero (S := S64x64) origin,
    View.ld_unit_zero (S := S64x1) origin, View.ld_unit_zero (S := S1x1) origin]
  obtain ⟨e0, e1, e2, e3, e4, e5, e6, e7, e8, e9, e10, e11, e12, e13, e14, e15, e16, e17⟩ := index_maps t
  funext j
  have hj1 : (j 1).val < 1 := (j 1).isLt
  refine (body_at (iblk2 V c 0 t) (iblk2 V c 1 t) (iblk2 V c 2 t) (iblk2 V c 3 t) (iblk2 V c 4 t) (iblk2 V c 5 t) (iblk2 V c 6 t) (iblk2 V c 7 t) j).trans ?_
  show _ = Ideal.logistic _
  refine congrArg Ideal.logistic (congrArg₂ (· + ·) (congrArg₂ (· + ·) ?_ ?_) ?_)
  · refine Finset.sum_congr rfl fun k _ => ?_
    refine congrArg₂ (· * ·) (congrArg₂ (· + ·) ?_ ?_) ?_
    · show V c main_v65 (((cfg2.win 0).blk t).view.emb (ix2 (j 0 : Fin 5000) k)) = V c main_v65 _
      refine congrArg (V c main_v65) (funext fun a => Fin.ext ?_)
      match a with
      | ⟨0, _⟩ => show win2_0.index t (0 : Fin 2) * 5000 + 1 * (j 0).val = win2_8.index t (0 : Fin 2) * 5000 + 1 * (j 0).val; omega
      | ⟨1, _⟩ => show win2_0.index t (1 : Fin 2) * 64 + 1 * k.val = k.val; omega
    · show V c main_v68 (((cfg2.win 1).blk t).view.emb (ix2 (0 : Fin 1) k)) = V c main_v68 _
      refine congrArg (V c main_v68) (funext fun a => Fin.ext ?_)
      match a with
      | ⟨0, _⟩ => show win2_1.index t (0 : Fin 2) * 1 + 1 * 0 = 0; omega
      | ⟨1, _⟩ => show win2_1.index t (1 : Fin 2) * 64 + 1 * k.val = k.val; omega
    · show V c main_v66 (((cfg2.win 5).blk t).view.emb (ix2 k (j 1 : Fin 1))) = V c main_v66 _
      refine congrArg (V c main_v66) (funext fun a => Fin.ext ?_)
      match a with
      | ⟨0, _⟩ => show win2_5.index t (0 : Fin 2) * 64 + 1 * k.val = k.val; omega
      | ⟨1, _⟩ => show win2_5.index t (1 : Fin 2) * 1 + 1 * (j 1).val = win2_8.index t (1 : Fin 2) * 1 + 1 * (j 1).val; omega
  · refine Finset.sum_congr rfl fun k _ => ?_
    refine congrArg₂ (· * ·) (congrArg₂ (· + ·) (Finset.sum_congr rfl fun l _ => congrArg₂ (· * ·) ?_ ?_) ?_) ?_
    · show V c main_arg1 (((cfg2.win 2).blk t).view.emb (ix2 (j 0 : Fin 5000) l)) = V c main_arg1 _
      refine congrArg (V c main_arg1) (funext fun a => Fin.ext ?_)
      match a with
      | ⟨0, _⟩ => show win2_2.index t (0 : Fin 2) * 5000 + 1 * (j 0).val = win2_8.index t (0 : Fin 2) * 5000 + 1 * (j 0).val; omega
      | ⟨1, _⟩ => show win2_2.index t (1 : Fin 2) * 64 + 1 * l.val = l.val; omega
    · show V c main_arg8 (((cfg2.win 3).blk t).view.emb (ix2 l k)) = V c main_arg8 _
      refine congrArg (V c main_arg8) (funext fun a => Fin.ext ?_)
      match a with
      | ⟨0, _⟩ => show win2_3.index t (0 : Fin 2) * 64 + 1 * l.val = l.val; omega
      | ⟨1, _⟩ => show win2_3.index t (1 : Fin 2) * 64 + 1 * k.val = k.val; omega
    · show V c main_v69 (((cfg2.win 4).blk t).view.emb (ix2 (0 : Fin 1) k)) = V c main_v69 _
      refine congrArg (V c main_v69) (funext fun a => Fin.ext ?_)
      match a with
      | ⟨0, _⟩ => show win2_4.index t (0 : Fin 2) * 1 + 1 * 0 = 0; omega
      | ⟨1, _⟩ => show win2_4.index t (1 : Fin 2) * 64 + 1 * k.val = k.val; omega
    · show V c main_v67 (((cfg2.win 6).blk t).view.emb (ix2 k (j 1 : Fin 1))) = V c main_v67 _
      refine congrArg (V c main_v67) (funext fun a => Fin.ext ?_)
      match a with
      | ⟨0, _⟩ => show win2_6.index t (0 : Fin 2) * 64 + 1 * k.val = k.val; omega
      | ⟨1, _⟩ => show win2_6.index t (1 : Fin 2) * 1 + 1 * (j 1).val = win2_8.index t (1 : Fin 2) * 1 + 1 * (j 1).val; omega
  · show V c main_v70 (((cfg2.win 7).blk t).view.emb (ix2 (0 : Fin 1) (0 : Fin 1))) = V c main_v70 _
    refine congrArg (V c main_v70) (funext fun a => Fin.ext ?_)
    match a with
    | ⟨0, _⟩ => show win2_7.index t (0 : Fin 2) * 1 + 1 * 0 = 0; omega
    | ⟨1, _⟩ => show win2_7.index t (1 : Fin 2) * 1 + 1 * 0 = 0; omega

/-- An index of the output array lies in point t's block iff each coordinate lies in the block's range on its axis. -/
theorem mem_blk (t : Fin cfg2.N) (i : S50000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v71).slice (win2_8.rect t)).set ↔ _
  rw [View.set_slice_whole, Rect.mem_set_unit]
  exact Iff.rfl

/-- Row r is in the block of point r / 5000: the ten blocks cover the array. -/
theorem cover (i : S50000x1.Idx) : ∃ t : Fin cfg2.N, (cfg2.win 8).flush t = true ∧ i ∈ ((cfg2.win 8).blk t).view.set := by
  have h0 : (i 0).val < 50000 := (i 0).isLt
  have h1 : (i 1).val < 1 := (i 1).isLt
  let t : Fin cfg2.N := ⟨(i 0).val / 5000, by show _ < 10; omega⟩
  obtain ⟨e0, e1, e2, e3, e4, e5, e6, e7, e8, e9, e10, e11, e12, e13, e14, e15, e16, e17⟩ := index_maps t
  have ht : t.val = (i 0).val / 5000 := rfl
  refine ⟨t, flush2_8 t, ?_⟩
  rw [mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 1 ≤ (i 1).val ∧ (i 1).val < win2_8.index t (1 : Fin 2) * 1 + 1; omega

/-- After the region the output array is the head of the whole arrays. -/
theorem final (c : Dev nD) : (dat2 V c).arrAt 8 cfg2.N
    = head (V c main_v65) (V c main_v68) (V c main_arg1) (V c main_arg8) (V c main_v69) (V c main_v66) (V c main_v67) (V c main_v70) :=
  (dat2 V c).arrAt_eq_of_cover 8 _ (fun t _ => flushed_eq V c t) cover

end Cert.KernelIdeal.Head

end
-- ==== Proof.Fold.lean ====
/-
  The fold of @main's ten segments, read at the buffers the value depends on.  Upstream of the first region the host
  operations compute, from the edge list and the edge weights alone, the source indices, the target indices and the edge
  norms ν[e] = d[row e] · w[e] · d[col e] with d = 1/√deg where the weighted degree is positive and 0 elsewhere: the
  reference computes the same three arrays by the same operations.  Each region's output array is the closed form of its
  layer at the arrays it finds; each stretch between regions is one message-passing step (`aggregate`) and a few
  re-layings of the small operands (a vector as one row, the two halves of the weight column).  Composed, the result
  array is the network of Spec.lean at the launch contents of the arguments.
-/
import proofs.«134691_j40896678592679_2_alg».proof.Proof.Gen.KernelIdeal.Frame
import proofs.«134691_j40896678592679_2_alg».proof.Proof.Gen.ReferenceIdeal.Read
import proofs.«134691_j40896678592679_2_alg».proof.Proof.Spec
import proofs.«134691_j40896678592679_2_alg».proof.Proof.Kept
import proofs.«134691_j40896678592679_2_alg».proof.Proof.Layer1
import proofs.«134691_j40896678592679_2_alg».proof.Proof.Layer2
import proofs.«134691_j40896678592679_2_alg».proof.Proof.Head
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Spec Cert.KernelIdeal.Kept
open Cert.ReferenceIdeal.Read
open Idealize.ShloMosaic.StableHlo

variable (m : (ℓ : Loc nD τ sig) → Buf (Elt Ideal) ℓ) (ρ : Dev nD → PrngReg)

/-! ## Before the first region: source indices, target indices, edge norms

The first stretch lays out the edge list (the two rows of the index array, each followed by the nodes' own indices; the
weights followed by ones) and sums the weights into the weighted degrees; the next four turn the degrees into d = 1/√deg
(0 where the degree is not positive), gather d at both ends of every edge and multiply. -/

set_option maxHeartbeats 4000000 in
theorem W1_row (c : Dev nD) : W1 m ρ c (Proc.devRef .tc main_v3) = val_main_v3 (F := Ideal) (m ((c : Thread nD τ).loc main_arg2)) := by
  show StableHlo.after hostOps0 (W0 m ρ c) (Proc.devRef .tc main_v3) = _
  dsimp only [hostOps0]
  after_results
  all_goals rfl

set_option maxHeartbeats 4000000 in
theorem W1_col (c : Dev nD) : W1 m ρ c (Proc.devRef .tc main_v6) = val_main_v6 (F := Ideal) (m ((c : Thread nD τ).loc main_arg2)) := by
  show StableHlo.after hostOps0 (W0 m ρ c) (Proc.devRef .tc main_v6) = _
  dsimp only [hostOps0]
  after_results
  all_goals rfl

set_option maxHeartbeats 4000000 in
theorem W1_ew (c : Dev nD) : W1 m ρ c (Proc.devRef .tc main_v8) = val_main_v8 (F := Ideal) (m ((c : Thread nD τ).loc main_arg3)) := by
  show StableHlo.after hostOps0 (W0 m ρ c) (Proc.devRef .tc main_v8) = _
  dsimp only [hostOps0]
  after_results
  all_goals rfl

set_option maxHeartbeats 4000000 in
theorem W1_deg (c : Dev nD) : W1 m ρ c (Proc.devRef .tc main_v11) = val_main_v11 (F := Ideal) (m ((c : Thread nD τ).loc main_arg2)) (m ((c : Thread nD τ).loc main_arg3)) := by
  show StableHlo.after hostOps0 (W0 m ρ c) (Proc.devRef .tc main_v11) = _
  dsimp only [hostOps0]
  after_results
  all_goals rfl

set_option maxHeartbeats 4000000 in
theorem W1_pos (c : Dev nD) : W1 m ρ c (Proc.devRef .tc main_v13) = val_main_v13 (F := Ideal) (m ((c : Thread nD τ).loc main_arg2)) (m ((c : Thread nD τ).loc main_arg3)) := by
  show StableHlo.after hostOps0 (W0 m ρ c) (Proc.devRef .tc main_v13) = _
  dsimp only [hostOps0]
  after_results
  all_goals rfl

set_option maxHeartbeats 4000000 in
theorem W1_one (c : Dev nD) : W1 m ρ c (Proc.devRef .tc main_cst_2) = val_main_cst_2 (F := Ideal) := by
  show StableHlo.after hostOps0 (W0 m ρ c) (Proc.devRef .tc main_cst_2) = _
  dsimp only [hostOps0]
  after_results
  all_goals rfl

set_option maxHeartbeats 4000000 in
theorem W4_row (c : Dev nD) : W4 m ρ c (Proc.devRef .tc main_v3) = (val_main_v3 (F := Ideal) (m ((c : Thread nD τ).loc main_arg2))) := by
  have h := W1_row m ρ c
  show StableHlo.after hostOps0_3 (StableHlo.after hostOps0_2 (StableHlo.after hostOps0_1 (W1 m ρ c))) (Proc.devRef .tc main_v3) = _
  generalize W1 m ρ c = V1 at h ⊢
  dsimp only [hostOps0_1, hostOps0_2, hostOps0_3]
  after_results_simp
  exact h

set_option maxHeartbeats 4000000 in
theorem W4_col (c : Dev nD) : W4 m ρ c (Proc.devRef .tc main_v6) = (val_main_v6 (F := Ideal) (m ((c : Thread nD τ).loc main_arg2))) := by
  have h := W1_col m ρ c
  show StableHlo.after hostOps0_3 (StableHlo.after hostOps0_2 (StableHlo.after hostOps0_1 (W1 m ρ c))) (Proc.devRef .tc main_v6) = _
  generalize W1 m ρ c = V1 at h ⊢
  dsimp only [hostOps0_1, hostOps0_2, hostOps0_3]
  after_results_simp
  exact h

set_option maxHeartbeats 4000000 in
theorem W4_ew (c : Dev nD) : W4 m ρ c (Proc.devRef .tc main_v8) = (val_main_v8 (F := Ideal) (m ((c : Thread nD τ).loc main_arg3))) := by
  have h := W1_ew m ρ c
  show StableHlo.after hostOps0_3 (StableHlo.after hostOps0_2 (StableHlo.after hostOps0_1 (W1 m ρ c))) (Proc.devRef .tc main_v8) = _
  generalize W1 m ρ c = V1 at h ⊢
  dsimp only [hostOps0_1, hostOps0_2, hostOps0_3]
  after_results_simp
  exact h

set_option maxHeartbeats 16000000 in
/-- The inverse square roots of the degrees, from any contents of the degrees, their positivity bits and the word of one. -/
theorem dinv_fold (V1 : Valuation τ sig (Elt Ideal)) (a11 : FVec Ideal S50000 .f32) (a13 : IVec S50000 1) (a1 : FVec Ideal S_ .f32)
    (h11 : V1 (Proc.devRef .tc main_v11) = a11) (h13 : V1 (Proc.devRef .tc main_v13) = a13) (h1 : V1 (Proc.devRef .tc main_cst_2) = a1) :
    StableHlo.after hostOps0_3 (StableHlo.after hostOps0_2 (StableHlo.after hostOps0_1 (V1))) (Proc.devRef .tc main_v18)
      = select (cmpf .ogt a11 (broadcastInDim S50000 ![] bcast_S_S50000 (constant (F := Ideal) S_ .f32 0x00000000#32)))
        (Host.rsqrt (select a13 a11 (broadcastInDim S50000 ![] bcast_S_S50000 (id a1))))
        (broadcastInDim S50000 ![] bcast_S_S50000 (id (constant (F := Ideal) S_ .f32 0x00000000#32))) := by
  dsimp only [hostOps0_1, hostOps0_2, hostOps0_3]
  after_results_simp
  rw [h11, h13, h1]
  rfl

/-- The reference spells the same array d. -/
theorem dinv_ref (x2 : IVec S2x1600000 32) (x3 : FVec Ideal S1600000 .f32) :
    select (cmpf .ogt (val_main_v11 (F := Ideal) x2 x3) (broadcastInDim S50000 ![] bcast_S_S50000 (constant (F := Ideal) S_ .f32 0x00000000#32)))
        (Host.rsqrt (select (val_main_v13 (F := Ideal) x2 x3) (val_main_v11 (F := Ideal) x2 x3) (broadcastInDim S50000 ![] bcast_S_S50000 (id (val_main_cst_2 (F := Ideal))))))
        (broadcastInDim S50000 ![] bcast_S_S50000 (id (constant (F := Ideal) S_ .f32 0x00000000#32)))
      = val_main_v18 (F := Ideal) x2 x3 := rfl

/-- d = 1/√deg where the weighted degree is positive, 0 elsewhere. -/
theorem W4_dinv (c : Dev nD) : W4 m ρ c (Proc.devRef .tc main_v18) = (val_main_v18 (F := Ideal) (m ((c : Thread nD τ).loc main_arg2)) (m ((c : Thread nD τ).loc main_arg3))) :=
  (dinv_fold (W1 m ρ c) _ _ _ (W1_deg m ρ c) (W1_pos m ρ c) (W1_one m ρ c)).trans (dinv_ref _ _)

set_option maxHeartbeats 4000000 in
theorem W5_row (c : Dev nD) : W5 m ρ c (Proc.devRef .tc main_v3) = (val_main_v3 (F := Ideal) (m ((c : Thread nD τ).loc main_arg2))) := by
  have h := W4_row m ρ c
  show StableHlo.after hostOps0_4 (W4 m ρ c) (Proc.devRef .tc main_v3) = _
  generalize W4 m ρ c = V4 at h ⊢
  dsimp only [hostOps0_4]
  after_results_simp
  exact h

set_option maxHeartbeats 4000000 in
theorem W5_col (c : Dev nD) : W5 m ρ c (Proc.devRef .tc main_v6) = (val_main_v6 (F := Ideal) (m ((c : Thread nD τ).loc main_arg2))) := by
  have h := W4_col m ρ c
  show StableHlo.after hostOps0_4 (W4 m ρ c) (Proc.devRef .tc main_v6) = _
  generalize W4 m ρ c = V4 at h ⊢
  dsimp only [hostOps0_4]
  after_results_simp
  exact h

set_option maxHeartbeats 16000000 in
/-- The edge norms from any contents of the source indices, target indices, padded weights and d. -/
theorem norm_fold (V4 : Valuation τ sig (Elt Ideal)) (a3 a6 : IVec S1650000 32) (a8 : FVec Ideal S1650000 .f32) (a18 : FVec Ideal S50000 .f32)
    (h3 : V4 (Proc.devRef .tc main_v3) = a3) (h6 : V4 (Proc.devRef .tc main_v6) = a6) (h8 : V4 (Proc.devRef .tc main_v8) = a8)
    (h18 : V4 (Proc.devRef .tc main_v18) = a18) :
    StableHlo.after hostOps0_4 V4 (Proc.devRef .tc main_v34)
      = mulf (F := Ideal) (φ := .f32) (mulf (F := Ideal) (φ := .f32) (Host.gather gather_S50000_S1650000x1_S1650000_n_0_n_n_0_1_1 a18
        (broadcastInDim S1650000x1 ![0] bcast_S1650000_S1650000x1_0
          (select (cmpi .slt a3 (broadcastInDim S1650000 ![] bcast_S_S1650000 (constantI S_ 32 0#32)))
            (addi a3 (broadcastInDim S1650000 ![] bcast_S_S1650000 (constantI S_ 32 50000#32))) a3))) a8)
      (Host.gather gather_S50000_S1650000x1_S1650000_n_0_n_n_0_1_1 a18
        (broadcastInDim S1650000x1 ![0] bcast_S1650000_S1650000x1_0
          (select (cmpi .slt a6 (broadcastInDim S1650000 ![] bcast_S_S1650000 (constantI S_ 32 0#32)))
            (addi a6 (broadcastInDim S1650000 ![] bcast_S_S1650000 (constantI S_ 32 50000#32))) a6))) := by
  dsimp only [hostOps0_4]
  after_results_simp
  rw [h3, h6, h8, h18]
  all_goals rfl

/-- The reference spells the same edge norms. -/
theorem norm_ref (x2 : IVec S2x1600000 32) (x3 : FVec Ideal S1600000 .f32) :
    mulf (F := Ideal) (φ := .f32) (mulf (F := Ideal) (φ := .f32) (Host.gather gather_S50000_S1650000x1_S1650000_n_0_n_n_0_1_1 (val_main_v18 (F := Ideal) x2 x3)
        (broadcastInDim S1650000x1 ![0] bcast_S1650000_S1650000x1_0
          (select (cmpi .slt (val_main_v3 (F := Ideal) x2) (broadcastInDim S1650000 ![] bcast_S_S1650000 (constantI S_ 32 0#32)))
            (addi (val_main_v3 (F := Ideal) x2) (broadcastInDim S1650000 ![] bcast_S_S1650000 (constantI S_ 32 50000#32))) (val_main_v3 (F := Ideal) x2)))) (val_main_v8 (F := Ideal) x3))
      (Host.gather gather_S50000_S1650000x1_S1650000_n_0_n_n_0_1_1 (val_main_v18 (F := Ideal) x2 x3)
        (broadcastInDim S1650000x1 ![0] bcast_S1650000_S1650000x1_0
          (select (cmpi .slt (val_main_v6 (F := Ideal) x2) (broadcastInDim S1650000 ![] bcast_S_S1650000 (constantI S_ 32 0#32)))
            (addi (val_main_v6 (F := Ideal) x2) (broadcastInDim S1650000 ![] bcast_S_S1650000 (constantI S_ 32 50000#32))) (val_main_v6 (F := Ideal) x2))))
      = val_main_v34 (F := Ideal) x2 x3 := rfl

/-- The edge norms ν[e] = d[row e] · w[e] · d[col e]. -/
theorem W5_norm (c : Dev nD) : W5 m ρ c (Proc.devRef .tc main_v34) = (val_main_v34 (F := Ideal) (m ((c : Thread nD τ).loc main_arg2)) (m ((c : Thread nD τ).loc main_arg3))) :=
  (norm_fold (W4 m ρ c) _ _ _ _ (W4_row m ρ c) (W4_col m ρ c) (W4_ew m ρ c) (W4_dinv m ρ c)).trans (norm_ref _ _)

/-! ## The first region and the first message-passing step -/

theorem W6_prod (c : Dev nD) : W6 m ρ c (Proc.devRef .tc main_v35) = rowsTimes (m ((c : Thread nD τ).loc main_arg0)) (m ((c : Thread nD τ).loc main_arg4)) :=
  (W6_arr m ρ c 2).trans ((Layer1.final (V5 m ρ) c).trans (congrArg₂ rowsTimes (W5_arg0 m ρ c) (W5_arg4 m ρ c)))

theorem W6_row (c : Dev nD) : W6 m ρ c (Proc.devRef .tc main_v3) = (val_main_v3 (F := Ideal) (m ((c : Thread nD τ).loc main_arg2))) := (W6_of_ne m ρ c main_v3 (by decide)).trans (W5_row m ρ c)
theorem W6_col (c : Dev nD) : W6 m ρ c (Proc.devRef .tc main_v6) = (val_main_v6 (F := Ideal) (m ((c : Thread nD τ).loc main_arg2))) := (W6_of_ne m ρ c main_v6 (by decide)).trans (W5_col m ρ c)
theorem W6_norm (c : Dev nD) : W6 m ρ c (Proc.devRef .tc main_v34) = (val_main_v34 (F := Ideal) (m ((c : Thread nD τ).loc main_arg2)) (m ((c : Thread nD τ).loc main_arg3))) := (W6_of_ne m ρ c main_v34 (by decide)).trans (W5_norm m ρ c)

set_option maxHeartbeats 4000000 in
theorem W7_agg (c : Dev nD) : W7 m ρ c (Proc.devRef .tc main_v49)
    = aggregate (W6 m ρ c (Proc.devRef .tc main_v3)) (W6 m ρ c (Proc.devRef .tc main_v6)) (W6 m ρ c (Proc.devRef .tc main_v34)) (W6 m ρ c (Proc.devRef .tc main_v35)) := by
  show StableHlo.after hostOps1 (W6 m ρ c) (Proc.devRef .tc main_v49) = _
  dsimp only [hostOps1]
  after_results_simp
  all_goals rfl

set_option maxHeartbeats 4000000 in
theorem W7_bias (c : Dev nD) : W7 m ρ c (Proc.devRef .tc main_v50) = shapeCast S1x64 (W6 m ρ c (Proc.devRef .tc main_arg5)) shapeCasts_S64_S1x64 := by
  show StableHlo.after hostOps1 (W6 m ρ c) (Proc.devRef .tc main_v50) = _
  dsimp only [hostOps1]
  after_results_simp
  all_goals rfl

theorem W7_row (c : Dev nD) : W7 m ρ c (Proc.devRef .tc main_v3) = (val_main_v3 (F := Ideal) (m ((c : Thread nD τ).loc main_arg2))) :=
  (show W7 m ρ c (Proc.devRef .tc main_v3) = W6 m ρ c (Proc.devRef .tc main_v3) by unwritten hostOps1).trans (W6_row m ρ c)
theorem W7_col (c : Dev nD) : W7 m ρ c (Proc.devRef .tc main_v6) = (val_main_v6 (F := Ideal) (m ((c : Thread nD τ).loc main_arg2))) :=
  (show W7 m ρ c (Proc.devRef .tc main_v6) = W6 m ρ c (Proc.devRef .tc main_v6) by unwritten hostOps1).trans (W6_col m ρ c)
theorem W7_norm (c : Dev nD) : W7 m ρ c (Proc.devRef .tc main_v34) = (val_main_v34 (F := Ideal) (m ((c : Thread nD τ).loc main_arg2)) (m ((c : Thread nD τ).loc main_arg3))) :=
  (show W7 m ρ c (Proc.devRef .tc main_v34) = W6 m ρ c (Proc.devRef .tc main_v34) by unwritten hostOps1).trans (W6_norm m ρ c)

/-- After the first message-passing step. -/
theorem W7_agg_eq (c : Dev nD) : W7 m ρ c (Proc.devRef .tc main_v49) = aggregate (val_main_v3 (F := Ideal) (m ((c : Thread nD τ).loc main_arg2))) (val_main_v6 (F := Ideal) (m ((c : Thread nD τ).loc main_arg2))) (val_main_v34 (F := Ideal) (m ((c : Thread nD τ).loc main_arg2)) (m ((c : Thread nD τ).loc main_arg3))) (rowsTimes (m ((c : Thread nD τ).loc main_arg0)) (m ((c : Thread nD τ).loc main_arg4))) := by
  rw [W7_agg, W6_row, W6_col, W6_norm, W6_prod]

theorem W7_bias_eq (c : Dev nD) : W7 m ρ c (Proc.devRef .tc main_v50) = shapeCast S1x64 (m ((c : Thread nD τ).loc main_arg5)) shapeCasts_S64_S1x64 := by
  rw [W7_bias, W6_arg5]

/-! ## The second region and the second message-passing step -/

theorem W8_prod (c : Dev nD) : W8 m ρ c (Proc.devRef .tc main_v51)
    = reluRowsTimes (aggregate (val_main_v3 (F := Ideal) (m ((c : Thread nD τ).loc main_arg2))) (val_main_v6 (F := Ideal) (m ((c : Thread nD τ).loc main_arg2))) (val_main_v34 (F := Ideal) (m ((c : Thread nD τ).loc main_arg2)) (m ((c : Thread nD τ).loc main_arg3))) (rowsTimes (m ((c : Thread nD τ).loc main_arg0)) (m ((c : Thread nD τ).loc main_arg4)))) (shapeCast S1x64 (m ((c : Thread nD τ).loc main_arg5)) shapeCasts_S64_S1x64) (m ((c : Thread nD τ).loc main_arg6)) :=
  (W8_arr m ρ c 3).trans ((Layer2.final (V7 m ρ) c).trans (by
    show reluRowsTimes (W7 m ρ c (Proc.devRef .tc main_v49)) (W7 m ρ c (Proc.devRef .tc main_v50)) (W7 m ρ c (Proc.devRef .tc main_arg6)) = _
    rw [W7_agg_eq, W7_bias_eq, W7_arg6]))

theorem W8_row (c : Dev nD) : W8 m ρ c (Proc.devRef .tc main_v3) = (val_main_v3 (F := Ideal) (m ((c : Thread nD τ).loc main_arg2))) := (W8_of_ne m ρ c main_v3 (by decide)).trans (W7_row m ρ c)
theorem W8_col (c : Dev nD) : W8 m ρ c (Proc.devRef .tc main_v6) = (val_main_v6 (F := Ideal) (m ((c : Thread nD τ).loc main_arg2))) := (W8_of_ne m ρ c main_v6 (by decide)).trans (W7_col m ρ c)
theorem W8_norm (c : Dev nD) : W8 m ρ c (Proc.devRef .tc main_v34) = (val_main_v34 (F := Ideal) (m ((c : Thread nD τ).loc main_arg2)) (m ((c : Thread nD τ).loc main_arg3))) := (W8_of_ne m ρ c main_v34 (by decide)).trans (W7_norm m ρ c)

set_option maxHeartbeats 4000000 in
theorem W9_agg (c : Dev nD) : W9 m ρ c (Proc.devRef .tc main_v65)
    = aggregate (W8 m ρ c (Proc.devRef .tc main_v3)) (W8 m ρ c (Proc.devRef .tc main_v6)) (W8 m ρ c (Proc.devRef .tc main_v34)) (W8 m ρ c (Proc.devRef .tc main_v51)) := by
  show StableHlo.after hostOps2 (W8 m ρ c) (Proc.devRef .tc main_v65) = _
  dsimp only [hostOps2]
  after_results_simp
  all_goals rfl

set_option maxHeartbeats 4000000 in
theorem W9_upper (c : Dev nD) : W9 m ρ c (Proc.devRef .tc main_v66) = extractStridedSlice S64x1 ![0, 0] (W8 m ρ c (Proc.devRef .tc main_arg10)) slices_S128x1_S64x1_0_0 := by
  show StableHlo.after hostOps2 (W8 m ρ c) (Proc.devRef .tc main_v66) = _
  dsimp only [hostOps2]
  after_results_simp
  all_goals rfl

set_option maxHeartbeats 4000000 in
theorem W9_lower (c : Dev nD) : W9 m ρ c (Proc.devRef .tc main_v67) = extractStridedSlice S64x1 ![64, 0] (W8 m ρ c (Proc.devRef .tc main_arg10)) slices_S128x1_S64x1_64_0 := by
  show StableHlo.after hostOps2 (W8 m ρ c) (Proc.devRef .tc main_v67) = _
  dsimp only [hostOps2]
  after_results_simp
  all_goals rfl

set_option maxHeartbeats 4000000 in
theorem W9_bias2 (c : Dev nD) : W9 m ρ c (Proc.devRef .tc main_v68) = shapeCast S1x64 (W8 m ρ c (Proc.devRef .tc main_arg7)) shapeCasts_S64_S1x64 := by
  show StableHlo.after hostOps2 (W8 m ρ c) (Proc.devRef .tc main_v68) = _
  dsimp only [hostOps2]
  after_results_simp
  all_goals rfl

set_option maxHeartbeats 4000000 in
theorem W9_biasf (c : Dev nD) : W9 m ρ c (Proc.devRef .tc main_v69) = shapeCast S1x64 (W8 m ρ c (Proc.devRef .tc main_arg9)) shapeCasts_S64_S1x64 := by
  show StableHlo.after hostOps2 (W8 m ρ c) (Proc.devRef .tc main_v69) = _
  dsimp only [hostOps2]
  after_results_simp
  all_goals rfl

set_option maxHeartbeats 4000000 in
theorem W9_biaso (c : Dev nD) : W9 m ρ c (Proc.devRef .tc main_v70) = shapeCast S1x1 (W8 m ρ c (Proc.devRef .tc main_arg11)) shapeCasts_S1_S1x1 := by
  show StableHlo.after hostOps2 (W8 m ρ c) (Proc.devRef .tc main_v70) = _
  dsimp only [hostOps2]
  after_results_simp
  all_goals rfl

/-! ## The third region: the result -/

/-- The result array at the end of the run is the network of the launch contents of the arguments. -/
theorem result (c : Dev nD) : W10 m ρ c (Proc.devRef .tc main_v71)
    = head (aggregate (val_main_v3 (F := Ideal) (m ((c : Thread nD τ).loc main_arg2))) (val_main_v6 (F := Ideal) (m ((c : Thread nD τ).loc main_arg2))) (val_main_v34 (F := Ideal) (m ((c : Thread nD τ).loc main_arg2)) (m ((c : Thread nD τ).loc main_arg3)))
          (reluRowsTimes (aggregate (val_main_v3 (F := Ideal) (m ((c : Thread nD τ).loc main_arg2))) (val_main_v6 (F := Ideal) (m ((c : Thread nD τ).loc main_arg2))) (val_main_v34 (F := Ideal) (m ((c : Thread nD τ).loc main_arg2)) (m ((c : Thread nD τ).loc main_arg3))) (rowsTimes (m ((c : Thread nD τ).loc main_arg0)) (m ((c : Thread nD τ).loc main_arg4)))) (shapeCast S1x64 (m ((c : Thread nD τ).loc main_arg5)) shapeCasts_S64_S1x64) (m ((c : Thread nD τ).loc main_arg6))))
        (shapeCast S1x64 (m ((c : Thread nD τ).loc main_arg7)) shapeCasts_S64_S1x64) (m ((c : Thread nD τ).loc main_arg1)) (m ((c : Thread nD τ).loc main_arg8)) (shapeCast S1x64 (m ((c : Thread nD τ).loc main_arg9)) shapeCasts_S64_S1x64)
        (extractStridedSlice S64x1 ![0, 0] (m ((c : Thread nD τ).loc main_arg10)) slices_S128x1_S64x1_0_0) (extractStridedSlice S64x1 ![64, 0] (m ((c : Thread nD τ).loc main_arg10)) slices_S128x1_S64x1_64_0)
        (shapeCast S1x1 (m ((c : Thread nD τ).loc main_arg11)) shapeCasts_S1_S1x1) :=
  (W10_arr m ρ c 8).trans ((Head.final (V9 m ρ) c).trans (by
    show head (W9 m ρ c (Proc.devRef .tc main_v65)) (W9 m ρ c (Proc.devRef .tc main_v68)) (W9 m ρ c (Proc.devRef .tc main_arg1)) (W9 m ρ c (Proc.devRef .tc main_arg8))
      (W9 m ρ c (Proc.devRef .tc main_v69)) (W9 m ρ c (Proc.devRef .tc main_v66)) (W9 m ρ c (Proc.devRef .tc main_v67)) (W9 m ρ c (Proc.devRef .tc main_v70)) = _
    rw [W9_agg, W8_row, W8_col, W8_norm, W8_prod, W9_bias2, W8_arg7, W9_arg1, W9_arg8, W9_biasf, W8_arg9, W9_upper, W9_lower, W8_arg10, W9_biaso, W8_arg11]))

end Cert.KernelIdeal.Fold

end
-- ==== Proof.RefStages.lean ====
/-
  The reference, stage by stage, is the same composition: its three matrix products are `rowsTimes`, `reluRowsTimes` (the
  bias broadcast down the rows, the rectifier a maximum with the zero word) and, inside the head, the product of the
  flat features; its two message-passing steps are `aggregate` of the source indices, target indices and edge norms it
  computes from the edge list; and its last stage — the two halves laid side by side, one product with the whole 128 × 1
  weight column, the bias, and 1 / (1 + exp(−·)) — is `head`: a sum over 128 columns of a row laid out as two rows of 64
  is the sum of the two sums of 64 (addition of extended reals is commutative and associative, so this needs no
  finiteness), and 1 / (1 + exp(−z)) is the logistic function of z by definition.
-/
import proofs.«134691_j40896678592679_2_alg».proof.Proof.Gen.ReferenceIdeal.Read
import proofs.«134691_j40896678592679_2_alg».proof.Proof.Spec
import Idealize.ShloMosaic.Lib.IdealHost

set_option maxRecDepth 16384

noncomputable section

namespace Cert.KernelIdeal.RefStages

open Cert.KernelIdeal Cert.KernelIdeal.Gen Cert.KernelIdeal.Spec Idealize.ShloMosaic Idealize.ShloMosaic.ValueIdx
open Cert.ReferenceIdeal.Read

variable (x0 x1 : FVec Ideal S50000x64 .f32) (x2 : IVec S2x1600000 32) (x3 : FVec Ideal S1600000 .f32)
  (x4 : FVec Ideal S64x64 .f32) (x5 : FVec Ideal S64 .f32) (x6 : FVec Ideal S64x64 .f32) (x7 : FVec Ideal S64 .f32)
  (x8 : FVec Ideal S64x64 .f32) (x9 : FVec Ideal S64 .f32) (x10 : FVec Ideal S128x1 .f32) (x11 : FVec Ideal S1 .f32)

/-! ## Index bookkeeping: the generated operand indices of the products are the coordinate pairs -/

theorem lidx35 (i : S50000x64.Idx) (k : Fin 64) : lidx_main_v35 i k = ix2 (i 0 : Fin 50000) k :=
  funext fun d => by match d with | ⟨0, _⟩ => rfl | ⟨1, _⟩ => rfl
theorem ridx35 (i : S50000x64.Idx) (k : Fin 64) : ridx_main_v35 i k = ix2 k (i 1 : Fin 64) :=
  funext fun d => by match d with | ⟨0, _⟩ => rfl | ⟨1, _⟩ => rfl
theorem lidx53 (i : S50000x64.Idx) (k : Fin 64) : lidx_main_v53 i k = ix2 (i 0 : Fin 50000) k :=
  funext fun d => by match d with | ⟨0, _⟩ => rfl | ⟨1, _⟩ => rfl
theorem ridx53 (i : S50000x64.Idx) (k : Fin 64) : ridx_main_v53 i k = ix2 k (i 1 : Fin 64) :=
  funext fun d => by match d with | ⟨0, _⟩ => rfl | ⟨1, _⟩ => rfl
theorem lidx70 (i : S50000x64.Idx) (k : Fin 64) : lidx_main_v70 i k = ix2 (i 0 : Fin 50000) k :=
  funext fun d => by match d with | ⟨0, _⟩ => rfl | ⟨1, _⟩ => rfl
theorem ridx70 (i : S50000x64.Idx) (k : Fin 64) : ridx_main_v70 i k = ix2 k (i 1 : Fin 64) :=
  funext fun d => by match d with | ⟨0, _⟩ => rfl | ⟨1, _⟩ => rfl

/-! ## The first product and the two message-passing steps -/

theorem layer1 : val_main_v35 (F := Ideal) x0 x4 = rowsTimes x0 x4 := by
  funext i
  rw [val_main_v35_apply]
  refine (Finset.sum_congr rfl fun k _ => ?_ : _ = rowsTimes x0 x4 i)
  exact congrArg₂ (· * ·) (congrArg x0 (lidx35 i k)) (congrArg x4 (ridx35 i k))

theorem aggregate1 : val_main_v48 (F := Ideal) x0 x2 x3 x4
    = aggregate (val_main_v3 (F := Ideal) x2) (val_main_v6 (F := Ideal) x2) (val_main_v34 (F := Ideal) x2 x3) (val_main_v35 (F := Ideal) x0 x4) := rfl

theorem aggregate2 : val_main_v66 (F := Ideal) x0 x2 x3 x4 x5 x6
    = aggregate (val_main_v3 (F := Ideal) x2) (val_main_v6 (F := Ideal) x2) (val_main_v34 (F := Ideal) x2 x3) (val_main_v53 (F := Ideal) x0 x2 x3 x4 x5 x6) := rfl

/-! ## The second product -/

/-- A length-64 vector recast as one row, read at (0, k), is its entry k. -/
theorem row_apply (b : FVec Ideal S64 .f32) (k : Fin 64) : shapeCast S1x64 b shapeCasts_S64_S1x64 (ix2 (0 : Fin 1) k) = b (ix1 k) :=
  shapeCast_apply b shapeCasts_S64_S1x64 (ix2 (0 : Fin 1) k) (ix1 k) (by
    rw [Shape.rowMajor_val_two, Shape.rowMajor_val_one]; show k.val = 0 * 64 + k.val; omega)

theorem bias50 (i : S50000x64.Idx) : val_main_v50 (F := Ideal) x5 i = x5 (ix1 (i 1 : Fin 64)) := by
  rw [val_main_v50_apply, val_main_v49_apply]
  exact congrArg x5 (funext fun d => by match d with | ⟨0, _⟩ => rfl)

theorem layer2 : val_main_v53 (F := Ideal) x0 x2 x3 x4 x5 x6
    = reluRowsTimes (val_main_v48 (F := Ideal) x0 x2 x3 x4) (shapeCast S1x64 x5 shapeCasts_S64_S1x64) x6 := by
  funext i
  rw [val_main_v53_apply]
  refine (Finset.sum_congr rfl fun k _ => ?_ : _ = reluRowsTimes (val_main_v48 (F := Ideal) x0 x2 x3 x4) (shapeCast S1x64 x5 shapeCasts_S64_S1x64) x6 i)
  rw [val_main_v52_apply, val_main_v51_apply, bias50, val_main_call2_v0_apply, val_main_call2_cst_apply, row_apply]
  exact congrArg₂ (· * ·)
    (congrArg (max · (Ideal.ofBits .f32 0x00000000#32)) (congrArg₂ (· + ·) (congrArg (val_main_v48 (F := Ideal) x0 x2 x3 x4) (lidx53 i k)) rfl))
    (congrArg x6 (ridx53 i k))

/-! ## The head -/

/-- A length-1 vector recast as a 1 × 1 matrix is its one entry. -/
theorem one_apply (b : FVec Ideal S1 .f32) (j : S1.Idx) : shapeCast S1x1 b shapeCasts_S1_S1x1 (ix2 (0 : Fin 1) (0 : Fin 1)) = b j :=
  shapeCast_apply b shapeCasts_S1_S1x1 (ix2 (0 : Fin 1) (0 : Fin 1)) j (by
    rw [Shape.rowMajor_val_two, Shape.rowMajor_val_one]
    have hj : (j 0).val < 1 := (j 0).isLt
    show (j 0).val = 0 * 1 + 0; omega)

/-- The upper half of the 128 × 1 weight column, read at (k, z). -/
theorem upper_apply (w : FVec Ideal S128x1 .f32) (k : Fin 64) (z : Fin 1) (j : S128x1.Idx) (h0 : (j 0).val = k.val) (h1 : (j 1).val = z.val) :
    extractStridedSlice S64x1 ![0, 0] w slices_S128x1_S64x1_0_0 (ix2 k z) = w j :=
  extractStridedSlice_apply ![0, 0] w slices_S128x1_S64x1_0_0 (ix2 k z) j (fun d => by
    match d with
    | ⟨0, _⟩ => show (j 0).val = 0 + k.val; omega
    | ⟨1, _⟩ => show (j 1).val = 0 + z.val; omega)

/-- The lower half of the 128 × 1 weight column, read at (k, z): row 64 + k. -/
theorem lower_apply (w : FVec Ideal S128x1 .f32) (k : Fin 64) (z : Fin 1) (j : S128x1.Idx) (h0 : (j 0).val = 64 + k.val) (h1 : (j 1).val = z.val) :
    extractStridedSlice S64x1 ![64, 0] w slices_S128x1_S64x1_64_0 (ix2 k z) = w j :=
  extractStridedSlice_apply ![64, 0] w slices_S128x1_S64x1_64_0 (ix2 k z) j (fun d => by
    match d with
    | ⟨0, _⟩ => show (j 0).val = 64 + k.val; omega
    | ⟨1, _⟩ => show (j 1).val = 0 + z.val; omega)

theorem bias68 (i : S50000x64.Idx) : val_main_v68 (F := Ideal) x7 i = x7 (ix1 (i 1 : Fin 64)) := by
  rw [val_main_v68_apply, val_main_v67_apply]
  exact congrArg x7 (funext fun d => by match d with | ⟨0, _⟩ => rfl)

theorem bias72 (i : S50000x64.Idx) : val_main_v72 (F := Ideal) x9 i = x9 (ix1 (i 1 : Fin 64)) := by
  rw [val_main_v72_apply, val_main_v71_apply]
  exact congrArg x9 (funext fun d => by match d with | ⟨0, _⟩ => rfl)

/-- The two halves laid side by side, read in the left half. -/
theorem side_left (p : Fin 50000) (k : Fin 64) (j : Cert.ReferenceIdeal.S50000x128.Idx) (h0 : (j 0).val = p.val) (h1 : (j 1).val = k.val) :
    val_main_v74 (F := Ideal) x0 x1 x2 x3 x4 x5 x6 x7 x8 x9 j = val_main_v69 (F := Ideal) x0 x2 x3 x4 x5 x6 x7 (ix2 p k) := by
  unfold val_main_v74
  exact concatenate_pair_apply_left 1 _ _ Cert.ReferenceIdeal.Gen.concatenates_S50000x64_S50000x64_S50000x128_d1 j rfl (ix2 p k) (fun d => by
    match d with
    | ⟨0, _⟩ => exact h0.symm
    | ⟨1, _⟩ => exact h1.symm)

/-- The two halves laid side by side, read in the right half: column 64 + k is the second array's column k. -/
theorem side_right (p : Fin 50000) (k : Fin 64) (j : Cert.ReferenceIdeal.S50000x128.Idx) (h0 : (j 0).val = p.val) (h1 : (j 1).val = 64 + k.val) :
    val_main_v74 (F := Ideal) x0 x1 x2 x3 x4 x5 x6 x7 x8 x9 j = val_main_v73 (F := Ideal) x1 x8 x9 (ix2 p k) := by
  unfold val_main_v74
  exact concatenate_pair_apply_right 1 _ _ Cert.ReferenceIdeal.Gen.concatenates_S50000x64_S50000x64_S50000x128_d1 j rfl rfl (ix2 p k) (fun d hd => by
    match d with
    | ⟨0, _⟩ => exact h0.symm
    | ⟨1, _⟩ => exact absurd rfl hd) (by show k.val + 64 = (j 1).val; omega)

/-- The host's spelling 1 / (1 + exp(−z)), with its two ones as printed words, is the logistic function of z. -/
theorem sigmoid_eq (z : EReal) : FloatOps.hostDivf (F := Ideal) (φ := .f32) (FloatOps.ofBits .f32 0x3F800000#32)
    (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.logistic z
  rw [Ideal.ofBits_one_f32]
  unfold Ideal.logistic
  rfl

theorem head_ref : val_main_v84 (F := Ideal) x0 x1 x2 x3 x4 x5 x6 x7 x8 x9 x10 x11
    = head (val_main_v66 (F := Ideal) x0 x2 x3 x4 x5 x6) (shapeCast S1x64 x7 shapeCasts_S64_S1x64) x1 x8 (shapeCast S1x64 x9 shapeCasts_S64_S1x64)
        (extractStridedSlice S64x1 ![0, 0] x10 slices_S128x1_S64x1_0_0) (extractStridedSlice S64x1 ![64, 0] x10 slices_S128x1_S64x1_64_0)
        (shapeCast S1x1 x11 shapeCasts_S1_S1x1) := by
  funext i
  rw [val_main_v84_apply, val_main_v83_apply, val_main_cst_15_apply, val_main_v82_apply, val_main_v81_apply, val_main_cst_14_apply,
    val_main_v80_apply, val_main_v79_apply, val_main_v78_apply, val_main_v75_apply, val_main_v77_apply, val_main_v76_apply]
  refine (sigmoid_eq _).trans (congrArg Ideal.logistic ?_ : _ = head (val_main_v66 (F := Ideal) x0 x2 x3 x4 x5 x6) (shapeCast S1x64 x7 shapeCasts_S64_S1x64) x1 x8
    (shapeCast S1x64 x9 shapeCasts_S64_S1x64) (extractStridedSlice S64x1 ![0, 0] x10 slices_S128x1_S64x1_0_0)
    (extractStridedSlice S64x1 ![64, 0] x10 slices_S128x1_S64x1_64_0) (shapeCast S1x1 x11 shapeCasts_S1_S1x1) i)
  refine congrArg₂ (· + ·) ?_ (one_apply x11 _).symm
  refine (Fin.sum_univ_add (fun k : Fin (64 + 64) => val_main_v74 (F := Ideal) x0 x1 x2 x3 x4 x5 x6 x7 x8 x9 (lidx_main_v75 i k) * x10 (ridx_main_v75 i k))).trans ?_
  refine congrArg₂ (· + ·) (Finset.sum_congr rfl fun k _ => ?_) (Finset.sum_congr rfl fun k _ => ?_)
  · have e := side_left x0 x1 x2 x3 x4 x5 x6 x7 x8 x9 (i 0) k (lidx_main_v75 i (Fin.castAdd 64 k)) rfl rfl
    refine congrArg₂ (· * ·) ?_ (upper_apply x10 k (i 1) (ridx_main_v75 i (Fin.castAdd 64 k)) rfl rfl).symm
    rw [e, val_main_v69_apply, bias68, row_apply]
    all_goals rfl
  · have e := side_right x0 x1 x2 x3 x4 x5 x6 x7 x8 x9 (i 0) k (lidx_main_v75 i (Fin.natAdd 64 k)) rfl rfl
    refine congrArg₂ (· * ·) ?_ (lower_apply x10 k (i 1) (ridx_main_v75 i (Fin.natAdd 64 k)) rfl rfl).symm
    rw [e, val_main_v73_apply, bias72, row_apply, val_main_v70_apply]
    refine congrArg₂ (· + ·) (Finset.sum_congr rfl fun l _ => ?_) rfl
    exact congrArg₂ (· * ·) (congrArg x1 (lidx70 _ l)) (congrArg x8 (ridx70 _ l))

end Cert.KernelIdeal.RefStages

end
-- ==== Proof.lean ====
/-
  Equivalence, over the extended reals, of a two-layer graph convolution with a fusion head written as three Pallas
  matrix-product kernels around host gather / scatter steps, and its plain jnp reference.

  Both programs compute, for N = 50000 nodes with 64 features and E = 1650000 edges (every node's self-loop appended),
      out = σ( concat(A(relu(A(x W₁) + b₁) W₂) + b₂ , flat W_f + b_f) · W_o + b_o ),
  where A(h)[r] = Σ_{e : col e = r} ν[e] · h[row e] is the normalised neighbourhood sum and σ the logistic function.
  The kernel computes the three dense stages block by block (ten blocks of 5000 rows), rounds its matrix-product operands
  to bf16 (the identity at the ideal instance), adds b₁ and b₂ inside the next kernel rather than after the aggregation,
  and replaces the product of the concatenation with the 128 × 1 weight column by the sum of two products with its
  halves.  Read at the ideal instance both are one function of the arguments:
    * the kernel's run names its result as the fold of its ten segments (Run.lean), and that fold, read region by
      region, is the network of Spec.lean (Layer1, Layer2, Head: the row blocks tile the arrays; Fold.lean);
    * the reference's generated run names its result as a composition of stages, which is the same network
      (RefStages.lean): a sum over 128 columns of two rows of 64 laid side by side is the sum of the two sums —
      addition of extended reals is commutative and associative, so no finiteness is used —, and 1 / (1 + exp(−z)) is
      the logistic function by definition.
  The precondition (every float input finite) is never opened.  The kernel's idealization rewrote nothing, so the
  `preserves` claim is trivial; the two kernel frames are the generated ones, and the reference's frame is its generated
  run with the result dropped.
-/
import proofs.«134691_j40896678592679_2_alg».proof.Defs
import proofs.«134691_j40896678592679_2_alg».proof.Proof.Gen.Kernel
import proofs.«134691_j40896678592679_2_alg».proof.Proof.Gen.Kernel.Skeleton
import proofs.«134691_j40896678592679_2_alg».proof.Proof.Gen.Kernel.Launch
import proofs.«134691_j40896678592679_2_alg».proof.Proof.Gen.Kernel.Points
import proofs.«134691_j40896678592679_2_alg».proof.Proof.Gen.Kernel.Frame
import proofs.«134691_j40896678592679_2_alg».proof.Proof.Gen.KernelIdeal
import proofs.«134691_j40896678592679_2_alg».proof.Proof.Gen.KernelIdeal.Skeleton
import proofs.«134691_j40896678592679_2_alg».proof.Proof.Gen.KernelIdeal.Launch
import proofs.«134691_j40896678592679_2_alg».proof.Proof.Gen.KernelIdeal.Points
import proofs.«134691_j40896678592679_2_alg».proof.Proof.Gen.KernelIdeal.Frame
import proofs.«134691_j40896678592679_2_alg».proof.Proof.Gen.ReferenceIdeal
import proofs.«134691_j40896678592679_2_alg».proof.Proof.Gen.ReferenceIdeal.Run
import proofs.«134691_j40896678592679_2_alg».proof.Proof.Gen.ReferenceIdeal.Read
import proofs.«134691_j40896678592679_2_alg».proof.Proof.Gen.Pre_finite_inputs
import proofs.«134691_j40896678592679_2_alg».proof.Proof.Run
import proofs.«134691_j40896678592679_2_alg».proof.Proof.Fold
import proofs.«134691_j40896678592679_2_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

set_option maxHeartbeats 4000000 in
/-- From memories agreeing on the arguments, the kernel's result array (the fold of its segments) and the reference's
    (the composition of its stages) are the same network of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v71), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  rw [Cert.KernelIdeal.RefStages.head_ref, Cert.KernelIdeal.RefStages.aggregate2, Cert.KernelIdeal.RefStages.layer2,
    Cert.KernelIdeal.RefStages.aggregate1, Cert.KernelIdeal.RefStages.layer1]
  exact (Cert.KernelIdeal.Fold.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
